-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S256x128 : Shape := ⟨2, ![256, 128]⟩
abbrev S256 : Shape := ⟨1, ![256]⟩
abbrev S128x256 : Shape := ⟨2, ![128, 256]⟩
abbrev S128 : Shape := ⟨1, ![128]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S262144x128 .f32) (main_arg1 : FVec F S256x128 .f32) (main_arg2 : FVec F S256 .f32) (main_arg3 : FVec F S128x256 .f32) (main_arg4 : FVec F S128 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_v13 main_v16
-- ==== Kernel.lean ====
abbrev S262144x128 : Shape := ⟨2, ![262144, 128]⟩
abbrev S256x128 : Shape := ⟨2, ![256, 128]⟩
abbrev S256 : Shape := ⟨1, ![256]⟩
abbrev S128x256 : Shape := ⟨2, ![128, 256]⟩
abbrev S128 : Shape := ⟨1, ![128]⟩
abbrev S1x256 : Shape := ⟨2, ![1, 256]⟩
abbrev S1x128 : Shape := ⟨2, ![1, 128]⟩
abbrev S4096x128 : Shape := ⟨2, ![4096, 128]⟩
abbrev S4096x256 : Shape := ⟨2, ![4096, 256]⟩

abbrev nBuf : Space → Nat
  | .hbm => 10
  | .vmem => 8
  | .smem => 0
  | _ => 0

abbrev bufTy : (tb : Table) → Fin (tcTables nBuf tb) → BufTy
  | .hbm, ⟨0, _⟩ => ⟨S262144x128, .f32⟩
  | .hbm, ⟨1, _⟩ => ⟨S256x128, .f32⟩
  | .hbm, ⟨2, _⟩ => ⟨S256, .f32⟩
  | .hbm, ⟨3, _⟩ => ⟨S128x256, .f32⟩
  | .hbm, ⟨4, _⟩ => ⟨S128, .f32⟩
  | .hbm, ⟨5, _⟩ => ⟨S256x128, .bf16⟩
  | .hbm, ⟨6, _⟩ => ⟨S128x256, .bf16⟩
  | .hbm, ⟨7, _⟩ => ⟨S1x256, .f32⟩
  | .hbm, ⟨8, _⟩ => ⟨S1x128, .f32⟩
  | .hbm, ⟨9, _⟩ => ⟨S262144x128, .f32⟩
  | .local _ .vmem, ⟨0, _⟩ => ⟨S4096x128, .f32⟩
  | .local _ .vmem, ⟨1, _⟩ => ⟨S4096x128, .f32⟩
  | .local _ .vmem, ⟨2, _⟩ => ⟨S256x128, .bf16⟩
  | .local _ .vmem, ⟨3, _⟩ => ⟨S1x256, .f32⟩
  | .local _ .vmem, ⟨4, _⟩ => ⟨S128x256, .bf16⟩
  | .local _ .vmem, ⟨5, _⟩ => ⟨S1x128, .f32⟩
  | .local _ .vmem, ⟨6, _⟩ => ⟨S4096x128, .f32⟩
  | .local _ .vmem, ⟨7, _⟩ => ⟨S4096x128, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  shapeCasts_S256_S1x256 : S256.ShapeCasts S1x256
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x256_S4096x256 : S1x256.Broadcasts S4096x256
  broadcasts_S1x128_S4096x128 : S1x128.Broadcasts S4096x128
  dot_S4096x128_S256x128_S4096x256_1_1_0_0_n_n_wf : DotDims.WF S4096x128 S256x128 S4096x256 [1] [1] [0] [0] [] []
  dot_S4096x256_S128x256_S4096x128_1_1_0_0_n_n_wf : DotDims.WF S4096x256 S128x256 S4096x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .bf16 = 32 ∨ (Rect.block (s := S256x128) S256x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S262144x128.size a
  hwx0_5 : ∀ i : grid0.Coords, EltTy.bits .f32 = 32 ∨ (Rect.block (s := S262144x128) S4096x128.size (cc0_transform_5 i) (hinb0_5 i)).WholeWords (EltTy.packing .f32)

variable [Facts₀]

def dot_S4096x128_S256x128_S4096x256_1_1_0_0_n_n : DotDims S4096x128 S256x128 S4096x256 where
  lhsContracting := [1]
  rhsContracting := [1]
  lhsNonContracting := [0]
  rhsNonContracting := [0]
  lhsBatch := []
  rhsBatch := []
  wf := dot_S4096x128_S256x128_S4096x256_1_1_0_0_n_n_wf
def dot_S4096x256_S128x256_S4096x128_1_1_0_0_n_n : DotDims S4096x256 S128x256 S4096x128 where
  lhsContracting := [1]
  rhsContracting := [1]
  lhsNonContracting := [0]
  rhsNonContracting := [0]
  lhsBatch := []
  rhsBatch := []
  wf := dot_S4096x256_S128x256_S4096x128_1_1_0_0_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S4096x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S262144x128 : Shape := ⟨2, ![262144, 128]⟩
abbrev S256x128 : Shape := ⟨2, ![256, 128]⟩
abbrev S256 : Shape := ⟨1, ![256]⟩
abbrev S128x256 : Shape := ⟨2, ![128, 256]⟩
abbrev S128 : Shape := ⟨1, ![128]⟩
abbrev S262144x256 : Shape := ⟨2, ![262144, 256]⟩
abbrev S1x256 : Shape := ⟨2, ![1, 256]⟩
abbrev S_ : Shape := ⟨0, ![]⟩
abbrev S1x128 : Shape := ⟨2, ![1, 128]⟩

abbrev nBuf : Space → Nat
  | .hbm => 90
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S256x128, .f32⟩
  | .hbm, ⟨2, _⟩ => ⟨S256, .f32⟩
  | .hbm, ⟨3, _⟩ => ⟨S128x256, .f32⟩
  | .hbm, ⟨4, _⟩ => ⟨S128, .f32⟩
  | .hbm, ⟨5, _⟩ => ⟨S128x256, .f32⟩
  | .hbm, ⟨6, _⟩ => ⟨S262144x256, .f32⟩
  | .hbm, ⟨7, _⟩ => ⟨S1x256, .f32⟩
  | .hbm, ⟨8, _⟩ => ⟨S262144x256, .f32⟩
  | .hbm, ⟨9, _⟩ => ⟨S262144x256, .f32⟩
  | .hbm, ⟨10, _⟩ => ⟨S_, .f32⟩
  | .hbm, ⟨11, _⟩ => ⟨S262144x256, .f32⟩
  | .hbm, ⟨12, _⟩ => ⟨S262144x256, .f32⟩
  | .hbm, ⟨13, _⟩ => ⟨S256x128, .f32⟩
  | .hbm, ⟨14, _⟩ => ⟨S262144x128, .f32⟩
  | .hbm, ⟨15, _⟩ => ⟨S1x128, .f32⟩
  | .hbm, ⟨16, _⟩ => ⟨S262144x128, .f32⟩
  | .hbm, ⟨17, _⟩ => ⟨S262144x128, .f32⟩
  | .hbm, ⟨18, _⟩ => ⟨S_, .f32⟩
  | .hbm, ⟨19, _⟩ => ⟨S262144x128, .f32⟩
  | .hbm, ⟨20, _⟩ => ⟨S262144x128, .f32⟩
  | .hbm, ⟨21, _⟩ => ⟨S_, .f32⟩
  | .hbm, ⟨22, _⟩ => ⟨S262144x128, .f32⟩
  | .hbm, ⟨23, _⟩ => ⟨S262144x128, .f32⟩
  | .hbm, ⟨24, _⟩ => ⟨S262144x128, .f32⟩
  | .hbm, ⟨25, _⟩ => ⟨S128x256, .f32⟩
  | .hbm, ⟨26, _⟩ => ⟨S262144x256, .f32⟩
  | .hbm, ⟨27, _⟩ => ⟨S1x256, .f32⟩
  | .hbm, ⟨28, _⟩ => ⟨S262144x256, .f32⟩
  | .hbm, ⟨29, _⟩ => ⟨S262144x256, .f32⟩
  | .hbm, ⟨30, _⟩ => ⟨S_, .f32⟩
  | .hbm, ⟨31, _⟩ => ⟨S262144x256, .f32⟩
  | .hbm, ⟨32, _⟩ => ⟨S262144x256, .f32⟩
  | .hbm, ⟨33, _⟩ => ⟨S256x128, .f32⟩
  | .hbm, ⟨34, _⟩ => ⟨S262144x128, .f32⟩
  | .hbm, ⟨35, _⟩ => ⟨S1x128, .f32⟩
  | .hbm, ⟨36, _⟩ => ⟨S262144x128, .f32⟩
  | .hbm, ⟨37, _⟩ => ⟨S262144x128, .f32⟩
  | .hbm, ⟨38, _⟩ => ⟨S_, .f32⟩
  | .hbm, ⟨39, _⟩ => ⟨S262144x128, .f32⟩
  | .hbm, ⟨40, _⟩ => ⟨S262144x128, .f32⟩
  | .hbm, ⟨41, _⟩ => ⟨S262144x128, .f32⟩
  | .hbm, ⟨42, _⟩ => ⟨S_, .f32⟩
  | .hbm, ⟨43, _⟩ => ⟨S262144x128, .f32⟩
  | .hbm, ⟨44, _⟩ => ⟨S262144x128, .f32⟩
  | .hbm, ⟨45, _⟩ => ⟨S262144x128, .f32⟩
  | .hbm, ⟨46, _⟩ => ⟨S128x256, .f32⟩
  | .hbm, ⟨47, _⟩ => ⟨S262144x256, .f32⟩
  | .hbm, ⟨48, _⟩ => ⟨S1x256, .f32⟩
  | .hbm, ⟨49, _⟩ => ⟨S262144x256, .f32⟩
  | .hbm, ⟨50, _⟩ => ⟨S262144x256, .f32⟩
  | .hbm, ⟨51, _⟩ => ⟨S_, .f32⟩
  | .hbm, ⟨52, _⟩ => ⟨S262144x256, .f32⟩
  | .hbm, ⟨53, _⟩ => ⟨S262144x256, .f32⟩
  | .hbm, ⟨54, _⟩ => ⟨S256x128, .f32⟩
  | .hbm, ⟨55, _⟩ => ⟨S262144x128, .f32⟩
  | .hbm, ⟨56, _⟩ => ⟨S1x128, .f32⟩
  | .hbm, ⟨57, _⟩ => ⟨S262144x128, .f32⟩
  | .hbm, ⟨58, _⟩ => ⟨S262144x128, .f32⟩
  | .hbm, ⟨59, _⟩ => ⟨S262144x128, .f32⟩
  | .hbm, ⟨60, _⟩ => ⟨S262144x128, .f32⟩
  | .hbm, ⟨61, _⟩ => ⟨S_, .f32⟩
  | .hbm, ⟨62, _⟩ => ⟨S262144x128, .f32⟩
  | .hbm, ⟨63, _⟩ => ⟨S262144x128, .f32⟩
  | .hbm, ⟨64, _⟩ => ⟨S262144x128, .f32⟩
  | .hbm, ⟨65, _⟩ => ⟨S128x256, .f32⟩
  | .hbm, ⟨66, _⟩ => ⟨S262144x256, .f32⟩
  | .hbm, ⟨67, _⟩ => ⟨S1x256, .f32⟩
  | .hbm, ⟨68, _⟩ => ⟨S262144x256, .f32⟩
  | .hbm, ⟨69, _⟩ => ⟨S262144x256, .f32⟩
  | .hbm, ⟨70, _⟩ => ⟨S_, .f32⟩
  | .hbm, ⟨71, _⟩ => ⟨S262144x256, .f32⟩
  | .hbm, ⟨72, _⟩ => ⟨S262144x256, .f32⟩
  | .hbm, ⟨73, _⟩ => ⟨S256x128, .f32⟩
  | .hbm, ⟨74, _⟩ => ⟨S262144x128, .f32⟩
  | .hbm, ⟨75, _⟩ => ⟨S1x128, .f32⟩
  | .hbm, ⟨76, _⟩ => ⟨S262144x128, .f32⟩
  | .hbm, ⟨77, _⟩ => ⟨S262144x128, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S262144x128, .f32⟩
  | .hbm, ⟨82, _⟩ => ⟨S_, .f32⟩
  | .hbm, ⟨83, _⟩ => ⟨S262144x128, .f32⟩
  | .hbm, ⟨84, _⟩ => ⟨S262144x128, .f32⟩
  | .hbm, ⟨85, _⟩ => ⟨S262144x128, .f32⟩
  | .hbm, ⟨86, _⟩ => ⟨S262144x128, .f32⟩
  | .hbm, ⟨87, _⟩ => ⟨S262144x128, .f32⟩
  | .hbm, ⟨88, _⟩ => ⟨S262144x128, .f32⟩
  | .hbm, ⟨89, _⟩ => ⟨S262144x128, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_6 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_7 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_8 : Ref sig .tc := ⟨.hbm, 78, rfl⟩
abbrev main_cst_9 : Ref sig .tc := ⟨.hbm, 79, rfl⟩
abbrev main_v64 : Ref sig .tc := ⟨.hbm, 80, rfl⟩
abbrev main_v65 : Ref sig .tc := ⟨.hbm, 81, rfl⟩
abbrev main_cst_10 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩

abbrev nD : Nat := 1
abbrev τ : Topo := Topo.v7x

variable {F : FTy → Type} [FloatOps F]

class Facts₀ : Prop where
  transposes_S256x128_S128x256_1_0 : S256x128.Transposes [1, 0] S128x256
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  transposes_S128x256_S256x128_1_0 : S128x256.Transposes [1, 0] S256x128
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  dot_S262144x128_S128x256_S262144x256_1_0_0_1_n_n_wf : DotDims.WF S262144x128 S128x256 S262144x256 [1] [0] [0] [1] [] []
  dot_S262144x256_S256x128_S262144x128_1_0_0_1_n_n_wf : DotDims.WF S262144x256 S256x128 S262144x128 [1] [0] [0] [1] [] []

variable [Facts₀]

def dot_S262144x128_S128x256_S262144x256_1_0_0_1_n_n : DotDims S262144x128 S128x256 S262144x256 where
  lhsContracting := [1]
  rhsContracting := [0]
  lhsNonContracting := [0]
  rhsNonContracting := [1]
  lhsBatch := []
  rhsBatch := []
  wf := dot_S262144x128_S128x256_S262144x256_1_0_0_1_n_n_wf
def dot_S262144x256_S256x128_S262144x128_1_0_0_1_n_n : DotDims S262144x256 S256x128 S262144x128 where
  lhsContracting := [1]
  rhsContracting := [0]
  lhsNonContracting := [0]
  rhsNonContracting := [1]
  lhsBatch := []
  rhsBatch := []
  wf := dot_S262144x256_S256x128_S262144x128_1_0_0_1_n_n_wf

class Facts : Prop extends Facts₀ where

variable [Facts]
-- ==== Proof.Dynamics.lean ====
/-
  The right-hand side of the differential equation, for one row of the state: a two-layer perceptron

      f(y)_q = ∑ₖ max(∑ⱼ yⱼ · W₁[k, j] + b₁[k], 0) · W₂[q, k] + b₂[q]

  with a hidden layer of 256 units over a state of 128 features, the weights stored one output unit per row (so both
  products contract the operands' second axes). Over the extended reals; the zero of the rectifier is kept as the
  float word both programs spell.
-/
import Idealize.ShloMosaic.PureOps.Ideal

noncomputable section

namespace Cert.Step

open Idealize.ShloMosaic
open scoped BigOperators

/-- The perceptron on one row `y`, read at feature `q`. -/
def dyn (W1 : Fin 256 → Fin 128 → EReal) (b1 : Fin 256 → EReal) (W2 : Fin 128 → Fin 256 → EReal)
    (b2 : Fin 128 → EReal) (y : Fin 128 → EReal) (q : Fin 128) : EReal :=
  (∑ k : Fin 256, max ((∑ j : Fin 128, y j * W1 k j) + b1 k) (Ideal.ofBits .f32 0x00000000#32) * W2 q k) + b2 q

end Cert.Step

end
-- ==== Proof.LibRowDot.lean ====
/-
  A matrix product against a row-major weight, read at an index.

  The dimension numbers of an [a, c] × [b, c] → [a, b] product contract axis 1 of BOTH operands and have no batch
  axis: the right operand is a stack of b rows of length c, and result entry (p, q) is the inner product of the left
  operand's row p with the right operand's row q. At result index (p, q) and contraction position k the left operand
  is read at (p, k) and the right operand at (q, k), so the sum over the contraction shape's one-axis index set is
  the sum over k : Fin c of lhs (p, k) * rhs (q, k) — in any commutative additive monoid with a product, the
  extended reals included. The statement is over variable extents; a printed record with these six lists is this
  one by reflexivity.
-/
import Idealize.ShloMosaic.Lib.ValueIdx
import Idealize.ShloMosaic.PureOps.Ideal.Laws

noncomputable section

namespace Cert.Lib.RowDot

open Idealize.ShloMosaic Idealize.ShloMosaic.ValueIdx
open scoped BigOperators

variable {a c b : Nat}

/-- The dimension numbers of the product [a, c] × [b, c] → [a, b] that contracts the second axis of both. -/
abbrev dims (wf : DotDims.WF ⟨2, ![a, c]⟩ ⟨2, ![b, c]⟩ ⟨2, ![a, b]⟩ [1] [1] [0] [0] [] []) :
    DotDims ⟨2, ![a, c]⟩ ⟨2, ![b, c]⟩ ⟨2, ![a, b]⟩ where
  lhsContracting := [1]
  rhsContracting := [1]
  lhsNonContracting := [0]
  rhsNonContracting := [0]
  lhsBatch := []
  rhsBatch := []
  wf := wf

variable (wf : DotDims.WF ⟨2, ![a, c]⟩ ⟨2, ![b, c]⟩ ⟨2, ![a, b]⟩ [1] [1] [0] [0] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the result's column. -/
theorem rhs_row (i : (⟨2, ![a, b]⟩ : Shape).Idx) (k : (dims wf).contr.Idx) :
    ((dims wf).rhsIdx i k 0).val = (i 1).val := by
  unfold DotDims.rhsIdx
  rw [dif_neg (show ¬(0 : Fin 2) ∈ (dims wf).rhsBatch from List.not_mem_nil),
    dif_pos (show (0 : Fin 2) ∈ (dims wf).rhsNonContracting from List.mem_singleton.mpr rfl)]
  rfl

/-- The right operand's column is the contraction position. -/
theorem rhs_col (i : (⟨2, ![a, b]⟩ : Shape).Idx) (k : (dims wf).contr.Idx) :
    ((dims wf).rhsIdx i k 1).val = (k ⟨0, Nat.one_pos⟩).val :=
  (dims wf).rhsIdx_val_of_single rfl i k

/-- The product's sum at (p, q): over k, the left operand at (p, k) times the right operand at (q, k). -/
theorem sum_apply {M : Type*} [AddCommMonoid M] [Mul M] (lhs : (⟨2, ![a, c]⟩ : Shape).Idx → M)
    (rhs : (⟨2, ![b, c]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 q k) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 q k :=
    funext fun ax => Fin.ext (by
      match ax with
      | ⟨0, _⟩ => exact rhs_row wf _ _
      | ⟨1, _⟩ => exact (rhs_col wf _ _).trans hk)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![b, c]⟩ φ₂) (p : Fin a) (q : Fin b) :
    matmul (dims wf) prec lhs rhs (constant ⟨2, ![a, b]⟩ .f32 0x00000000#32) (ix2 p q)
      = ∑ k : Fin c, lhs (ix2 p k) * rhs (ix2 q k) :=
  (Ideal.matmul_constant_zero_apply (dims wf) prec lhs rhs (ix2 p q)).trans (sum_apply wf lhs rhs p q)

end Cert.Lib.RowDot

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.KernelStage.lean ====
/-
  One evaluation of the right-hand side as the kernel body spells it, on a block of 4096 rows of the state held in
  fast memory: round the rows to the short float format, multiply by the first weight matrix (row k of the matrix is
  hidden unit k) into a zero accumulator, add the bias row, rectify, round again, multiply by the second weight matrix,
  add the second bias row.

  At the exact values a change of float format is the identity, a product into the zero accumulator is the plain sum
  over the contracted axis, and a bias row broadcast down the block reads the row: entry (p, q) of the result is the
  perceptron `Cert.Step.dyn` of row p of the block, read at feature q. Nothing else about the block enters.
-/
import proofs.«107746_j39135742001490_2_alg».proof.Proof.Gen.KernelIdeal
import proofs.«107746_j39135742001490_2_alg».proof.Proof.Dynamics
import proofs.«107746_j39135742001490_2_alg».proof.Proof.LibRowDot
import proofs.«107746_j39135742001490_2_alg».proof.Proof.LibRowBroadcasts

noncomputable section

namespace Cert.KernelIdeal.Stage

open Cert.KernelIdeal Cert.KernelIdeal.Facts₀ Idealize.ShloMosaic Idealize.ShloMosaic.ValueIdx
open scoped BigOperators

/-- The right-hand side on a block `y` of rows, with the weights and bias rows as the body holds them. -/
def stageV (y : FVec Ideal S4096x128 .f32) (w1 : FVec Ideal S256x128 .bf16) (b1 : FVec Ideal S1x256 .f32)
    (w2 : FVec Ideal S128x256 .bf16) (b2 : FVec Ideal S1x128 .f32) : FVec Ideal S4096x128 .f32 :=
  addf
    (matmul dot_S4096x256_S128x256_S4096x128_1_1_0_0_n_n none
      (truncf .bf16
        (maximumf
          (addf
            (matmul dot_S4096x128_S256x128_S4096x256_1_1_0_0_n_n none (truncf .bf16 y bitsLt_bf16_f32) w1
              (constant S4096x256 .f32 0x00000000#32))
            (broadcastTo S4096x256 b1 broadcasts_S1x256_S4096x256))
          (broadcast S4096x256 (Scalar.ofBits .f32 0x00000000#32)))
        bitsLt_bf16_f32)
      w2 (constant S4096x128 .f32 0x00000000#32))
    (broadcastTo S4096x128 b2 broadcasts_S1x128_S4096x128)

/-- Entry (p, q) of the block's right-hand side is the perceptron of row p at feature q. -/
theorem stageV_apply (y : FVec Ideal S4096x128 .f32) (w1 : FVec Ideal S256x128 .bf16) (b1 : FVec Ideal S1x256 .f32)
    (w2 : FVec Ideal S128x256 .bf16) (b2 : FVec Ideal S1x128 .f32) (p : Fin 4096) (q : Fin 128) :
    stageV y w1 b1 w2 b2 (ix2 p q)
      = Cert.Step.dyn (fun k j => w1 (ix2 k j)) (fun k => b1 (ix2 (0 : Fin 1) k)) (fun r k => w2 (ix2 r k))
          (fun r => b2 (ix2 (0 : Fin 1) r)) (fun j => y (ix2 p j)) q := by
  unfold stageV Cert.Step.dyn
  rw [addf_apply, Cert.Lib.Rows.bcastRow_apply]
  refine congrArg (· + b2 (ix2 (0 : Fin 1) q)) ?_
  refine (Cert.Lib.RowDot.matmul_zero_apply dot_S4096x256_S128x256_S4096x128_1_1_0_0_n_n_wf none _ w2 p q).trans ?_
  refine Finset.sum_congr rfl fun k _ => ?_
  refine congrArg (· * w2 (ix2 q k)) ?_
  rw [truncf_apply, maximumf_apply, addf_apply, broadcast_apply, Cert.Lib.Rows.bcastRow_apply]
  refine congrArg (fun s => max (s + b1 (ix2 (0 : Fin 1) k)) _) ?_
  exact Cert.Lib.RowDot.matmul_zero_apply dot_S4096x128_S256x128_S4096x256_1_1_0_0_n_n_wf none _ w1 p k

end Cert.KernelIdeal.Stage

end
-- ==== Proof.StepLaw.lean ====
/-
  One step of the fourth-order Runge–Kutta 3/8 rule with unit step size, for one row of the state, over the extended
  reals, for ANY right-hand side `f` acting on rows.

  With `k₁ = f x`, `k₂ = f (x + (1·k₁)·⅓)`, `k₃ = f (x + 1·(k₂ − k₁·⅓))`, `k₄ = f (x + 1·((k₁ − k₂) + k₃))`, the new state is
  written in two ways: ACCUMULATED, term by term,

      (((x + ⅛·k₁) + ⅜·k₂) + ⅜·k₃) + ⅛·k₄,

  and COMBINED, one weight on a bracket,

      x + (1·⅛)·((k₁ + 3·(k₂ + k₃)) + k₄).

  The weights ⅛, ⅜, 3 and 1 are exact binary fractions, and ⅛·3 = ⅜. A nonnegative REAL factor distributes over a sum
  of extended reals whatever the summands are (the sum of +∞ and −∞ is −∞ on both sides of the equation), so the two
  forms agree for every `k₁ … k₄`, infinite ones included: no finiteness is used. The factor written ⅓ is a float
  literal that is not one third; it enters both forms the same way and is never evaluated.
-/
import Idealize.ShloMosaic.PureOps.Ideal

noncomputable section

namespace Cert.Step

open Idealize.ShloMosaic

/-! ## The literals -/

/-- The float word of `1.0` denotes the real 1. -/
theorem one_eq : Ideal.ofBits .f32 0x3F800000#32 = ((1 : ℝ) : EReal) := by
  simp [Ideal.ofBits, Ideal.ieee, -EReal.coe_mul]; norm_num

/-- The float word of `0.125` denotes the real 1/8. -/
theorem eighth_eq : Ideal.ofBits .f32 0x3E000000#32 = ((1 / 8 : ℝ) : EReal) := by
  simp [Ideal.ofBits, Ideal.ieee, -EReal.coe_mul]; norm_num

/-- The float word of `0.375` denotes the real 3/8. -/
theorem threeEighths_eq : Ideal.ofBits .f32 0x3EC00000#32 = ((3 / 8 : ℝ) : EReal) := by
  simp [Ideal.ofBits, Ideal.ieee, -EReal.coe_mul]; norm_num

/-- The float word of `3.0` denotes the real 3. -/
theorem three_eq : Ideal.ofBits .f32 0x40400000#32 = ((3 : ℝ) : EReal) := by
  simp [Ideal.ofBits, Ideal.ieee, -EReal.coe_mul]; norm_num

/-! ## The law on four numbers -/

/-- The accumulated and the combined weighting of four slopes agree on the extended reals. -/
theorem weights (x a b c d : EReal) :
    (((x + Ideal.ofBits .f32 0x3E000000#32 * a) + Ideal.ofBits .f32 0x3EC00000#32 * b)
        + Ideal.ofBits .f32 0x3EC00000#32 * c) + Ideal.ofBits .f32 0x3E000000#32 * d
      = x + (Ideal.ofBits .f32 0x3F800000#32 * Ideal.ofBits .f32 0x3E000000#32)
          * ((a + Ideal.ofBits .f32 0x40400000#32 * (b + c)) + d) := by
  rw [one_eq, eighth_eq, threeEighths_eq, three_eq]
  have h8 : (0 : EReal) ≤ ((1 / 8 : ℝ) : EReal) := EReal.coe_nonneg.mpr (by norm_num)
  have h38 : (0 : EReal) ≤ ((3 / 8 : ℝ) : EReal) := EReal.coe_nonneg.mpr (by norm_num)
  have e18 : ((1 : ℝ) : EReal) * ((1 / 8 : ℝ) : EReal) = ((1 / 8 : ℝ) : EReal) := by
    rw [← EReal.coe_mul, one_mul]
  have e38 : ((1 / 8 : ℝ) : EReal) * (((3 : ℝ) : EReal) * (b + c)) = ((3 / 8 : ℝ) : EReal) * (b + c) := by
    rw [← mul_assoc, ← EReal.coe_mul]; norm_num
  rw [e18, EReal.left_distrib_of_nonneg_of_ne_top h8 (EReal.coe_ne_top _),
    EReal.left_distrib_of_nonneg_of_ne_top h8 (EReal.coe_ne_top _), e38,
    EReal.left_distrib_of_nonneg_of_ne_top h38 (EReal.coe_ne_top _)]
  simp only [add_assoc]

/-! ## The step, row by row -/

variable {ι : Type} (f : (ι → EReal) → ι → EReal)

/-- The second stage's argument. -/
def arg2 (x : ι → EReal) : ι → EReal := fun j =>
  x j + (Ideal.ofBits .f32 0x3F800000#32 * f x j) * Ideal.ofBits .f32 0x3EAAAAAB#32

/-- The third stage's argument. -/
def arg3 (x : ι → EReal) : ι → EReal := fun j =>
  x j + Ideal.ofBits .f32 0x3F800000#32 * (f (arg2 f x) j - f x j * Ideal.ofBits .f32 0x3EAAAAAB#32)

/-- The fourth stage's argument. -/
def arg4 (x : ι → EReal) : ι → EReal := fun j =>
  x j + Ideal.ofBits .f32 0x3F800000#32 * ((f x j - f (arg2 f x) j) + f (arg3 f x) j)

/-- The new state, the slopes weighted one after the other. -/
def accumulated (x : ι → EReal) : ι → EReal := fun j =>
  (((x j + Ideal.ofBits .f32 0x3E000000#32 * f x j) + Ideal.ofBits .f32 0x3EC00000#32 * f (arg2 f x) j)
      + Ideal.ofBits .f32 0x3EC00000#32 * f (arg3 f x) j) + Ideal.ofBits .f32 0x3E000000#32 * f (arg4 f x) j

/-- The new state, one weight on the bracket of the slopes. -/
def combined (x : ι → EReal) : ι → EReal := fun j =>
  x j + (Ideal.ofBits .f32 0x3F800000#32 * Ideal.ofBits .f32 0x3E000000#32)
    * ((f x j + Ideal.ofBits .f32 0x40400000#32 * (f (arg2 f x) j + f (arg3 f x) j)) + f (arg4 f x) j)

/-- The two forms of the new state are one function of the row. -/
theorem accumulated_eq_combined (x : ι → EReal) : accumulated f x = combined f x :=
  funext fun j => weights (x j) (f x j) (f (arg2 f x) j) (f (arg3 f x) j) (f (arg4 f x) j)

end Cert.Step

end
-- ==== Proof.KernelBlock.lean ====
/-
  The kernel body on one block of 4096 rows of the state: four evaluations of the right-hand side, each at the block
  plus a pointwise combination of the earlier slopes, and the new state accumulated slope by slope.

  Everything between two evaluations of the right-hand side is pointwise, so entry (p, q) of each stage's argument
  depends on row p only: it is the row-level argument of `Cert.Step` for the perceptron with the body's weights, at
  row p of the block. By `stageV_apply` the same holds of each slope, and so of the stored result, which is the
  ACCUMULATED form of the step at row p.
-/
import proofs.«107746_j39135742001490_2_alg».proof.Proof.Gen.KernelIdeal.Skeleton
import proofs.«107746_j39135742001490_2_alg».proof.Proof.KernelStage
import proofs.«107746_j39135742001490_2_alg».proof.Proof.StepLaw

noncomputable section

namespace Cert.KernelIdeal.Stage

open Cert.KernelIdeal Cert.KernelIdeal.Gen Cert.KernelIdeal.Facts₀ Idealize.ShloMosaic Idealize.ShloMosaic.ValueIdx

variable (x : FVec Ideal S4096x128 .f32) (w1 : FVec Ideal S256x128 .bf16) (b1 : FVec Ideal S1x256 .f32)
  (w2 : FVec Ideal S128x256 .bf16) (b2 : FVec Ideal S1x128 .f32)

/-- The perceptron with the weights and biases the body holds: row k of `w1` is hidden unit k, row r of `w2` is
    output feature r, the biases are 1-row matrices. -/
def rowDyn : (Fin 128 → EReal) → Fin 128 → EReal :=
  Cert.Step.dyn (fun k j => w1 (ix2 k j)) (fun k => b1 (ix2 (0 : Fin 1) k)) (fun r k => w2 (ix2 r k))
    (fun r => b2 (ix2 (0 : Fin 1) r))

/-- The second stage's argument on the block. -/
def argV2 : FVec Ideal S4096x128 .f32 :=
  addf x (mulf (mulf (broadcast S4096x128 (Scalar.ofBits .f32 0x3F800000#32)) (stageV x w1 b1 w2 b2))
    (broadcast S4096x128 (Scalar.ofBits .f32 0x3EAAAAAB#32)))

/-- The third stage's argument on the block. -/
def argV3 : FVec Ideal S4096x128 .f32 :=
  addf x (mulf (broadcast S4096x128 (Scalar.ofBits .f32 0x3F800000#32))
    (subf (stageV (argV2 x w1 b1 w2 b2) w1 b1 w2 b2)
      (mulf (stageV x w1 b1 w2 b2) (broadcast S4096x128 (Scalar.ofBits .f32 0x3EAAAAAB#32)))))

/-- The fourth stage's argument on the block. -/
def argV4 : FVec Ideal S4096x128 .f32 :=
  addf x (mulf (broadcast S4096x128 (Scalar.ofBits .f32 0x3F800000#32))
    (addf (subf (stageV x w1 b1 w2 b2) (stageV (argV2 x w1 b1 w2 b2) w1 b1 w2 b2))
      (stageV (argV3 x w1 b1 w2 b2) w1 b1 w2 b2)))

/-- The block the body stores. -/
def outV : FVec Ideal S4096x128 .f32 :=
  addf
    (addf
      (addf (addf x (mulf (broadcast S4096x128 (Scalar.ofBits .f32 0x3E000000#32)) (stageV x w1 b1 w2 b2)))
        (mulf (broadcast S4096x128 (Scalar.ofBits .f32 0x3EC00000#32)) (stageV (argV2 x w1 b1 w2 b2) w1 b1 w2 b2)))
      (mulf (broadcast S4096x128 (Scalar.ofBits .f32 0x3EC00000#32)) (stageV (argV3 x w1 b1 w2 b2) w1 b1 w2 b2)))
    (mulf (broadcast S4096x128 (Scalar.ofBits .f32 0x3E000000#32)) (stageV (argV4 x w1 b1 w2 b2) w1 b1 w2 b2))

/-- The body's stored value, over its loads, is `outV` of them: the printed operations in the printed order. -/
theorem payload_eq (v0 : Vec Ideal S4096x128 .f32) (v1 : Vec Ideal S256x128 .bf16) (v3 : Vec Ideal S1x256 .f32)
    (v5 : Vec Ideal S128x256 .bf16) (v7 : Vec Ideal S1x128 .f32) :
    k0_pay1 v0 (k0_pay2 v1) (k0_pay3 v3) (k0_pay4 v5) (k0_pay5 v7) (k0_pay6 v0 v1 v3 v5 v7) (k0_pay7 v0 v1 v3 v5 v7)
        (k0_pay8 v0 v1 v3 v5 v7) (k0_pay9 v0 v1 v3 v5 v7)
      = outV v0 (k0_pay2 v1) (k0_pay3 v3) (k0_pay4 v5) (k0_pay5 v7) := rfl

/-- The first slope at (p, q). -/
theorem slope1_apply (p : Fin 4096) (q : Fin 128) :
    stageV x w1 b1 w2 b2 (ix2 p q) = rowDyn w1 b1 w2 b2 (fun j => x (ix2 p j)) q :=
  stageV_apply x w1 b1 w2 b2 p q

/-- The second stage's argument at (p, j). -/
theorem argV2_apply (p : Fin 4096) (j : Fin 128) :
    argV2 x w1 b1 w2 b2 (ix2 p j) = Cert.Step.arg2 (rowDyn w1 b1 w2 b2) (fun j => x (ix2 p j)) j := by
  unfold argV2
  rw [addf_apply, mulf_apply, mulf_apply, broadcast_apply, broadcast_apply, slope1_apply]
  rfl

/-- The second slope at (p, q). -/
theorem slope2_apply (p : Fin 4096) (q : Fin 128) :
    stageV (argV2 x w1 b1 w2 b2) w1 b1 w2 b2 (ix2 p q)
      = rowDyn w1 b1 w2 b2 (Cert.Step.arg2 (rowDyn w1 b1 w2 b2) (fun j => x (ix2 p j))) q :=
  (stageV_apply _ w1 b1 w2 b2 p q).trans
    (congrArg (fun y => rowDyn w1 b1 w2 b2 y q) (funext fun j => argV2_apply x w1 b1 w2 b2 p j))

/-- The third stage's argument at (p, j). -/
theorem argV3_apply (p : Fin 4096) (j : Fin 128) :
    argV3 x w1 b1 w2 b2 (ix2 p j) = Cert.Step.arg3 (rowDyn w1 b1 w2 b2) (fun j => x (ix2 p j)) j := by
  unfold argV3
  rw [addf_apply, mulf_apply, broadcast_apply, subf_apply, mulf_apply, broadcast_apply, slope2_apply, slope1_apply]
  rfl

/-- The third slope at (p, q). -/
theorem slope3_apply (p : Fin 4096) (q : Fin 128) :
    stageV (argV3 x w1 b1 w2 b2) w1 b1 w2 b2 (ix2 p q)
      = rowDyn w1 b1 w2 b2 (Cert.Step.arg3 (rowDyn w1 b1 w2 b2) (fun j => x (ix2 p j))) q :=
  (stageV_apply _ w1 b1 w2 b2 p q).trans
    (congrArg (fun y => rowDyn w1 b1 w2 b2 y q) (funext fun j => argV3_apply x w1 b1 w2 b2 p j))

/-- The fourth stage's argument at (p, j). -/
theorem argV4_apply (p : Fin 4096) (j : Fin 128) :
    argV4 x w1 b1 w2 b2 (ix2 p j) = Cert.Step.arg4 (rowDyn w1 b1 w2 b2) (fun j => x (ix2 p j)) j := by
  unfold argV4
  rw [addf_apply, mulf_apply, broadcast_apply, addf_apply, subf_apply, slope3_apply, slope2_apply, slope1_apply]
  rfl

/-- The fourth slope at (p, q). -/
theorem slope4_apply (p : Fin 4096) (q : Fin 128) :
    stageV (argV4 x w1 b1 w2 b2) w1 b1 w2 b2 (ix2 p q)
      = rowDyn w1 b1 w2 b2 (Cert.Step.arg4 (rowDyn w1 b1 w2 b2) (fun j => x (ix2 p j))) q :=
  (stageV_apply _ w1 b1 w2 b2 p q).trans
    (congrArg (fun y => rowDyn w1 b1 w2 b2 y q) (funext fun j => argV4_apply x w1 b1 w2 b2 p j))

/-- The stored block at (p, q): the accumulated form of the step at row p. -/
theorem outV_apply (p : Fin 4096) (q : Fin 128) :
    outV x w1 b1 w2 b2 (ix2 p q) = Cert.Step.accumulated (rowDyn w1 b1 w2 b2) (fun j => x (ix2 p j)) q := by
  unfold outV
  rw [addf_apply, addf_apply, addf_apply, addf_apply, mulf_apply, mulf_apply, mulf_apply, mulf_apply, broadcast_apply,
    broadcast_apply, slope4_apply, slope3_apply, slope2_apply, slope1_apply]
  rfl

end Cert.KernelIdeal.Stage

end
-- ==== Proof.KernelArray.lean ====
/-
  From blocks to the whole array.

  The kernel walks the state in 64 blocks of 4096 rows. At point t the state's window holds rows 4096·t … 4096·t + 4095
  (all 128 columns), the four parameter windows hold their whole arrays at every point, and the output window writes
  back rows 4096·t … of the result. By `outV_apply` entry (p, q) of what point t writes depends on row p of its state
  block and on the parameters only, so it is the accumulated step at row 4096·t + p of the state: every point writes a
  block of ONE function of the arrays (`newState`). The 64 blocks cover the result (row r is in block r / 4096), so the
  result array ends holding that function. The parameter arrays the region finds are the launch arrays rounded to the
  short format (the weights) and given a leading unit axis (the biases), by the four host operations before the region.
-/
import proofs.«107746_j39135742001490_2_alg».proof.Proof.Gen.KernelIdeal.Value
import proofs.«107746_j39135742001490_2_alg».proof.Proof.KernelBlock
import Idealize.ShloMosaic.Lib.Pipeline.Value
import Idealize.ShloMosaic.Lib.StableHlo.Run

set_option maxRecDepth 16384

noncomputable section

namespace Cert.KernelIdeal.Whole

open Cert.KernelIdeal Cert.KernelIdeal.Gen Cert.KernelIdeal.Facts₀ Idealize.ShloMosaic Idealize.ShloMosaic.TcCoe
open Idealize.SL.Sem Idealize.ShloMosaic.ValueIdx
open Idealize.ShloMosaic.Pipeline (Dat)

variable (m : (ℓ : Loc nD τ sig) → Buf (Elt Ideal) ℓ) (ρ : Dev nD → PrngReg)

/-- The new state as one function of the state array and the parameters the body holds: the accumulated step at
    each row. -/
def newState (X : FVec Ideal S262144x128 .f32) (w1 : FVec Ideal S256x128 .bf16) (b1 : FVec Ideal S1x256 .f32)
    (w2 : FVec Ideal S128x256 .bf16) (b2 : FVec Ideal S1x128 .f32) : FVec Ideal S262144x128 .f32 :=
  fun i => Cert.Step.accumulated (Stage.rowDyn w1 b1 w2 b2) (fun j => X (ix2 (i 0) j)) (i 1)

/-- What a point stores, at block entry `y`, is `newState` at the array entry `i` the block entry lies on — when
    the state block's row through `y` is the array's row through `i`, the columns agree, and the parameter blocks are
    the parameter arrays. -/
theorem block_entry (X : FVec Ideal S262144x128 .f32) (x0 : FVec Ideal S4096x128 .f32) (x1 : FVec Ideal S256x128 .bf16)
    (x2 : FVec Ideal S1x256 .f32) (x3 : FVec Ideal S128x256 .bf16) (x4 : FVec Ideal S1x128 .f32)
    (w1 : FVec Ideal S256x128 .bf16) (b1 : FVec Ideal S1x256 .f32) (w2 : FVec Ideal S128x256 .bf16)
    (b2 : FVec Ideal S1x128 .f32) (y : S4096x128.Idx) (i : S262144x128.Idx)
    (h0 : ∀ j : Fin 128, x0 (ix2 (y 0) j) = X (ix2 (i 0) j)) (hq : (y 1).val = (i 1).val)
    (h1 : x1 = w1) (h2 : x2 = b1) (h3 : x3 = w2) (h4 : x4 = b2) :
    Stage.outV x0 x1 x2 x3 x4 y = newState X w1 b1 w2 b2 i := by
  subst h1 h2 h3 h4
  obtain ⟨p, q, rfl⟩ : ∃ (p : Fin 4096) (q : Fin 128), y = ix2 p q := ⟨y 0, y 1, eq_ix2 y⟩
  rw [Stage.outV_apply]
  unfold newState
  have hrow : (fun j => x0 (ix2 p j)) = fun j => X (ix2 (i 0) j) := funext h0
  have hcol : q = i 1 := Fin.ext hq
  rw [hrow, hcol]

/-- The zero offsets of the body's loads and store. -/
theorem zeros : (![0, 0] : Fin 2 → Nat) = fun _ => 0 := funext fun a => by fin_cases a <;> rfl

/-- The printed index maps, decided over the 64 points: the state and the result move together down the rows, one
    block per point; every other block index is zero. -/
theorem idx_facts : ∀ t : Fin cfg0.N, win0_0.index t (0 : Fin 2) = win0_5.index t (0 : Fin 2)
    ∧ win0_0.index t (1 : Fin 2) = 0 ∧ win0_5.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val :=
  (by decide +kernel : ∀ t : Fin grid0.N, _)

/-- What point `t` writes back is block `t` of `newState` of the arrays as the region finds them. -/
theorem flushed_eq (c : Dev nD) (t : Fin cfg0.N) :
    (dats m 0 c).flushed 5 t = ((cfg0.win 5).blk t).view.read (Elt Ideal)
      (newState (V m c main_arg0) (V m c main_v0) (V m c main_v2) (V m c main_v1) (V m c main_v3)) := by
  rw [Value.flushed5]
  unfold out0_5
  rw [View.canon_unit_zero zeros]
  simp only [View.ld_unit_zero (S := S4096x128) zeros, View.ld_unit_zero (S := S256x128) zeros,
    View.ld_unit_zero (S := S1x256) zeros, View.ld_unit_zero (S := S128x256) zeros,
    View.ld_unit_zero (S := S1x128) zeros]
  rw [Stage.payload_eq]
  obtain ⟨f00, f01, f51, f10, f11, f20, f21, f30, f31, f40, f41, -⟩ := idx_facts t
  funext y
  show Stage.outV (iblk m c 0 t) (k0_pay2 (iblk m c 1 t)) (k0_pay3 (iblk m c 2 t)) (k0_pay4 (iblk m c 3 t))
      (k0_pay5 (iblk m c 4 t)) y
    = newState (V m c main_arg0) (V m c main_v0) (V m c main_v2) (V m c main_v1) (V m c main_v3)
        (((cfg0.win 5).blk t).view.emb y)
  refine block_entry (V m c main_arg0) (iblk m c 0 t) _ _ _ _ (V m c main_v0) (V m c main_v2) (V m c main_v1)
    (V m c main_v3) y (((cfg0.win 5).blk t).view.emb y) (fun j => ?_) ?_ ?_ ?_ ?_ ?_
  · show V m c main_arg0 (((cfg0.win 0).blk t).view.emb (ix2 (y 0) j))
      = V m c main_arg0 (ix2 ((((cfg0.win 5).blk t).view.emb y) 0) j)
    refine congrArg (V m c main_arg0) (funext fun a => Fin.ext ?_)
    match a with
    | ⟨0, _⟩ =>
      show win0_0.index t (0 : Fin 2) * 4096 + 1 * (y 0).val = win0_5.index t (0 : Fin 2) * 4096 + 1 * (y 0).val
      omega
    | ⟨1, _⟩ =>
      show win0_0.index t (1 : Fin 2) * 128 + 1 * j.val = j.val
      omega
  · show (y 1).val = win0_5.index t (1 : Fin 2) * 128 + 1 * (y 1).val
    omega
  · unfold k0_pay2
    rw [shapeCast_self]
    funext z
    show V m c main_v0 (((cfg0.win 1).blk t).view.emb z) = V m c main_v0 z
    refine congrArg (V m c main_v0) (funext fun a => Fin.ext ?_)
    match a with
    | ⟨0, _⟩ => show win0_1.index t (0 : Fin 2) * 256 + 1 * (z 0).val = (z 0).val; omega
    | ⟨1, _⟩ => show win0_1.index t (1 : Fin 2) * 128 + 1 * (z 1).val = (z 1).val; omega
  · unfold k0_pay3
    rw [shapeCast_self]
    funext z
    show V m c main_v2 (((cfg0.win 2).blk t).view.emb z) = V m c main_v2 z
    refine congrArg (V m c main_v2) (funext fun a => Fin.ext ?_)
    match a with
    | ⟨0, _⟩ => show win0_2.index t (0 : Fin 2) * 1 + 1 * (z 0).val = (z 0).val; omega
    | ⟨1, _⟩ => show win0_2.index t (1 : Fin 2) * 256 + 1 * (z 1).val = (z 1).val; omega
  · unfold k0_pay4
    rw [shapeCast_self]
    funext z
    show V m c main_v1 (((cfg0.win 3).blk t).view.emb z) = V m c main_v1 z
    refine congrArg (V m c main_v1) (funext fun a => Fin.ext ?_)
    match a with
    | ⟨0, _⟩ => show win0_3.index t (0 : Fin 2) * 128 + 1 * (z 0).val = (z 0).val; omega
    | ⟨1, _⟩ => show win0_3.index t (1 : Fin 2) * 256 + 1 * (z 1).val = (z 1).val; omega
  · unfold k0_pay5
    rw [shapeCast_self]
    funext z
    show V m c main_v3 (((cfg0.win 4).blk t).view.emb z) = V m c main_v3 z
    refine congrArg (V m c main_v3) (funext fun a => Fin.ext ?_)
    match a with
    | ⟨0, _⟩ => show win0_4.index t (0 : Fin 2) * 1 + 1 * (z 0).val = (z 0).val; omega
    | ⟨1, _⟩ => show win0_4.index t (1 : Fin 2) * 128 + 1 * (z 1).val = (z 1).val; omega

/-- An entry of the result array is in point `t`'s block iff each coordinate is in the block's range on its axis. -/
theorem mem_blk (t : Fin cfg0.N) (i : S262144x128.Idx) :
    i ∈ ((cfg0.win 5).blk t).view.set ↔ ∀ a : Fin 2, win0_5.index t a * S4096x128.size a ≤ (i a).val
      ∧ (i a).val < win0_5.index t a * S4096x128.size a + S4096x128.size a := by
  show i ∈ ((View.whole main_v4).slice (win0_5.rect t)).set ↔ _
  rw [View.set_slice_whole, Rect.mem_set_unit]
  exact Iff.rfl

/-- Every entry of the result array is in some point's block: row r is in block r / 4096. -/
theorem cover (i : S262144x128.Idx) :
    ∃ t : Fin cfg0.N, (cfg0.win 5).flush t = true ∧ i ∈ ((cfg0.win 5).blk t).view.set := by
  have hi0 : (i 0).val < 262144 := (i 0).isLt
  have hi1 : (i 1).val < 128 := (i 1).isLt
  have hN : (i 0).val / 4096 < cfg0.N := by
    show (i 0).val / 4096 < grid0.N
    rw [N_0]; omega
  obtain ⟨-, -, f51, -, -, -, -, -, -, -, -, f50⟩ := idx_facts ⟨(i 0).val / 4096, hN⟩
  have f50' : win0_5.index ⟨(i 0).val / 4096, hN⟩ (0 : Fin 2) = (i 0).val / 4096 := f50
  refine ⟨⟨(i 0).val / 4096, hN⟩, flush0_5 _, ?_⟩
  rw [mem_blk]
  intro a
  match a with
  | ⟨0, _⟩ =>
    show win0_5.index ⟨(i 0).val / 4096, hN⟩ (0 : Fin 2) * 4096 ≤ (i 0).val
      ∧ (i 0).val < win0_5.index ⟨(i 0).val / 4096, hN⟩ (0 : Fin 2) * 4096 + 4096
    omega
  | ⟨1, _⟩ =>
    show win0_5.index ⟨(i 0).val / 4096, hN⟩ (1 : Fin 2) * 128 ≤ (i 1).val
      ∧ (i 1).val < win0_5.index ⟨(i 0).val / 4096, hN⟩ (1 : Fin 2) * 128 + 128
    omega

/-- The result array after the run is `newState` of the arrays as the region finds them. -/
theorem final (c : Dev nD) : (dats m 0 c).arrAt 5 cfg0.N
    = newState (V m c main_arg0) (V m c main_v0) (V m c main_v2) (V m c main_v1) (V m c main_v3) :=
  (dats m 0 c).arrAt_eq_of_cover 5 _ (fun t _ => flushed_eq m c t) cover

/-! ## The parameter arrays as the region finds them -/

/-- The first weight matrix the region finds is the launch one rounded to the short format. -/
theorem V_w1 (c : Dev nD) : @Eq (FVec Ideal S256x128 .bf16) (V m c main_v0)
    (truncf (F := Ideal) (s := S256x128) .bf16 (m ((c : Thread nD τ).loc main_arg1)) Facts₀.bitsLt_bf16_f32) := by
  dsimp only [Gen.V, Gen.hostOps0]; after_results

/-- The second weight matrix the region finds is the launch one rounded to the short format. -/
theorem V_w2 (c : Dev nD) : @Eq (FVec Ideal S128x256 .bf16) (V m c main_v1)
    (truncf (F := Ideal) (s := S128x256) .bf16 (m ((c : Thread nD τ).loc main_arg3)) Facts₀.bitsLt_bf16_f32) := by
  dsimp only [Gen.V, Gen.hostOps0]; after_results

/-- The first bias the region finds is the launch vector as a 1-row matrix. -/
theorem V_b1 (c : Dev nD) : (V m c main_v2 : S1x256.Idx → Ideal .f32)
    = shapeCast S1x256 (m ((c : Thread nD τ).loc main_arg2) : S256.Idx → Ideal .f32) Facts₀.shapeCasts_S256_S1x256 := by
  dsimp only [Gen.V, Gen.hostOps0]; after_results; rfl

/-- The second bias the region finds is the launch vector as a 1-row matrix. -/
theorem V_b2 (c : Dev nD) : (V m c main_v3 : S1x128.Idx → Ideal .f32)
    = shapeCast S1x128 (m ((c : Thread nD τ).loc main_arg4) : S128.Idx → Ideal .f32) Facts₀.shapeCasts_S128_S1x128 := by
  dsimp only [Gen.V, Gen.hostOps0]; after_results; rfl

/-! ## The run -/

/-- Every weakly fair execution of the idealized kernel terminates with the result array at `newState` of the launch
    arrays — the weights rounded, the biases as 1-row matrices — and the arguments unchanged. -/
theorem run : θ_run defs (onTc (τ := τ) (main (F := Ideal))) ⟨m, fun _ => 0, ρ⟩ fun r => ∀ c : Dev nD,
      r.2.mem ((c : Thread nD τ).loc main_v4)
        = newState (m ((c : Thread nD τ).loc main_arg0))
            (truncf (F := Ideal) (s := S256x128) .bf16 (m ((c : Thread nD τ).loc main_arg1)) Facts₀.bitsLt_bf16_f32)
            (shapeCast S1x256 (m ((c : Thread nD τ).loc main_arg2) : S256.Idx → Ideal .f32) Facts₀.shapeCasts_S256_S1x256)
            (truncf (F := Ideal) (s := S128x256) .bf16 (m ((c : Thread nD τ).loc main_arg3)) Facts₀.bitsLt_bf16_f32)
            (shapeCast S1x128 (m ((c : Thread nD τ).loc main_arg4) : S128.Idx → Ideal .f32) Facts₀.shapeCasts_S128_S1x128)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (by
      rw [V_main_arg0, V_w1, V_w2, V_b1, V_b2])), (h c).2⟩)
    (Value.run_blocks m ρ)

end Cert.KernelIdeal.Whole

end
-- ==== Proof.RefStage.lean ====
/-
  The reference, read row by row.

  The reference evaluates the right-hand side on the whole 262144-row state: transpose the first weight matrix and
  multiply, add the first bias (made a row, then broadcast down), rectify against a broadcast zero, transpose the second
  weight matrix and multiply, add the second bias. Read at (r, q), with every layout operation followed back to the
  argument it reads, that is the perceptron `Cert.Step.dyn` of row r at feature q — for ANY 262144-row array in the
  state's place (`stage_apply`). The later stages are the same operations at other arrays (`slope2_eq` … hold by
  unfolding the stages' definitions), and between two stages everything is pointwise, so each stage argument at (r, j)
  is the row-level argument of `Cert.Step` at row r. The result is the COMBINED form of the step at row r.
-/
import proofs.«107746_j39135742001490_2_alg».proof.Proof.Gen.ReferenceIdeal.Read
import proofs.«107746_j39135742001490_2_alg».proof.Proof.Dynamics
import proofs.«107746_j39135742001490_2_alg».proof.Proof.StepLaw

noncomputable section

namespace Cert.ReferenceIdeal.RefValue

open Cert.ReferenceIdeal Cert.ReferenceIdeal.Read Idealize.ShloMosaic Idealize.ShloMosaic.ValueIdx
open scoped BigOperators

variable (x0 : (⟨S262144x128, .f32⟩ : BufTy).Contents (Elt Ideal)) (x1 : (⟨S256x128, .f32⟩ : BufTy).Contents (Elt Ideal))
  (x2 : (⟨S256, .f32⟩ : BufTy).Contents (Elt Ideal)) (x3 : (⟨S128x256, .f32⟩ : BufTy).Contents (Elt Ideal))
  (x4 : (⟨S128, .f32⟩ : BufTy).Contents (Elt Ideal))

/-- The perceptron with the reference's weights and biases: row k of the first matrix is hidden unit k, row r of the
    second is output feature r, the biases are vectors. -/
def rowDyn : (Fin 128 → EReal) → Fin 128 → EReal :=
  Cert.Step.dyn (fun k j => x1 (ix2 k j)) (fun k => x2 (ix1 k)) (fun r k => x3 (ix2 r k)) (fun r => x4 (ix1 r))

/-- The right-hand side on any 262144-row array `Y`, at (r, q): the perceptron of row r of `Y` at feature q. -/
theorem stage_apply (Y : (⟨S262144x128, .f32⟩ : BufTy).Contents (Elt Ideal)) (r : Fin 262144) (q : Fin 128) :
    val_main_v11 (F := Ideal) Y x1 x2 x3 x4 (ix2 r q) = rowDyn x1 x2 x3 x4 (fun j => Y (ix2 r j)) q := by
  have e1 : ∀ (k : Fin 256) (j : Fin 128), lidx_main_v1 (lidx_main_v8 (ix2 r q) k) j = ix2 r j := fun k j =>
    funext fun a => Fin.ext (by match a with | ⟨0, _⟩ => rfl | ⟨1, _⟩ => rfl)
  have e2 : ∀ (k : Fin 256) (j : Fin 128), idx_main_v0 (ridx_main_v1 (lidx_main_v8 (ix2 r q) k) j) = ix2 k j := fun k j =>
    funext fun a => Fin.ext (by match a with | ⟨0, _⟩ => rfl | ⟨1, _⟩ => rfl)
  have e3 : ∀ k : Fin 256, idx_main_v2 (idx_main_v3 (lidx_main_v8 (ix2 r q) k)) = ix1 k := fun k =>
    funext fun a => Fin.ext (by match a with | ⟨0, _⟩ => rfl)
  have e4 : ∀ k : Fin 256, idx_main_v7 (ridx_main_v8 (ix2 r q) k) = ix2 q k := fun k =>
    funext fun a => Fin.ext (by match a with | ⟨0, _⟩ => rfl | ⟨1, _⟩ => rfl)
  have e5 : idx_main_v9 (idx_main_v10 (ix2 r q)) = ix1 q :=
    funext fun a => Fin.ext (by match a with | ⟨0, _⟩ => rfl)
  rw [val_main_v11_apply, val_main_v8_apply, val_main_v10_apply, val_main_v9_apply]
  simp only [val_main_v6_apply, val_main_v4_apply, val_main_v1_apply, val_main_v0_apply, val_main_v3_apply,
    val_main_v2_apply, val_main_v5_apply, val_main_cst_apply, val_main_v7_apply, e1, e2, e3, e4, e5,
    Ideal.addf_def, Ideal.mulf_def, Ideal.maximumf_def, Ideal.ofBits_def]
  rfl

/-! ## The later stages are the first stage's operations at other arrays -/

theorem slope2_eq : val_main_v28 (F := Ideal) x0 x1 x2 x3 x4
    = val_main_v11 (F := Ideal) (val_main_v16 (F := Ideal) x0 x1 x2 x3 x4) x1 x2 x3 x4 := rfl

theorem slope3_eq : val_main_v46 (F := Ideal) x0 x1 x2 x3 x4
    = val_main_v11 (F := Ideal) (val_main_v34 (F := Ideal) x0 x1 x2 x3 x4) x1 x2 x3 x4 := rfl

theorem slope4_eq : val_main_v63 (F := Ideal) x0 x1 x2 x3 x4
    = val_main_v11 (F := Ideal) (val_main_v51 (F := Ideal) x0 x1 x2 x3 x4) x1 x2 x3 x4 := rfl

/-! ## The step at row r -/

/-- The first slope at (r, q). -/
theorem slope1_apply (r : Fin 262144) (q : Fin 128) :
    val_main_v11 (F := Ideal) x0 x1 x2 x3 x4 (ix2 r q) = rowDyn x1 x2 x3 x4 (fun j => x0 (ix2 r j)) q :=
  stage_apply x1 x2 x3 x4 x0 r q

/-- The second stage's argument at (r, j). -/
theorem arg2_apply (r : Fin 262144) (j : Fin 128) :
    val_main_v16 (F := Ideal) x0 x1 x2 x3 x4 (ix2 r j)
      = Cert.Step.arg2 (rowDyn x1 x2 x3 x4) (fun j => x0 (ix2 r j)) j := by
  rw [val_main_v16_apply, val_main_v15_apply, val_main_v13_apply, val_main_v12_apply, val_main_v14_apply,
    val_main_cst_0_apply, val_main_cst_1_apply, slope1_apply]
  rfl

/-- The second slope at (r, q). -/
theorem slope2_apply (r : Fin 262144) (q : Fin 128) :
    val_main_v28 (F := Ideal) x0 x1 x2 x3 x4 (ix2 r q)
      = rowDyn x1 x2 x3 x4 (Cert.Step.arg2 (rowDyn x1 x2 x3 x4) (fun j => x0 (ix2 r j))) q := by
  rw [slope2_eq, stage_apply]
  exact congrArg (fun y => rowDyn x1 x2 x3 x4 y q) (funext fun j => arg2_apply x0 x1 x2 x3 x4 r j)

/-- The third stage's argument at (r, j). -/
theorem arg3_apply (r : Fin 262144) (j : Fin 128) :
    val_main_v34 (F := Ideal) x0 x1 x2 x3 x4 (ix2 r j)
      = Cert.Step.arg3 (rowDyn x1 x2 x3 x4) (fun j => x0 (ix2 r j)) j := by
  rw [val_main_v34_apply, val_main_v33_apply, val_main_v32_apply, val_main_cst_4_apply, val_main_v31_apply,
    val_main_v30_apply, val_main_v29_apply, val_main_cst_3_apply, slope2_apply, slope1_apply]
  rfl

/-- The third slope at (r, q). -/
theorem slope3_apply (r : Fin 262144) (q : Fin 128) :
    val_main_v46 (F := Ideal) x0 x1 x2 x3 x4 (ix2 r q)
      = rowDyn x1 x2 x3 x4 (Cert.Step.arg3 (rowDyn x1 x2 x3 x4) (fun j => x0 (ix2 r j))) q := by
  rw [slope3_eq, stage_apply]
  exact congrArg (fun y => rowDyn x1 x2 x3 x4 y q) (funext fun j => arg3_apply x0 x1 x2 x3 x4 r j)

/-- The fourth stage's argument at (r, j). -/
theorem arg4_apply (r : Fin 262144) (j : Fin 128) :
    val_main_v51 (F := Ideal) x0 x1 x2 x3 x4 (ix2 r j)
      = Cert.Step.arg4 (rowDyn x1 x2 x3 x4) (fun j => x0 (ix2 r j)) j := by
  rw [val_main_v51_apply, val_main_v50_apply, val_main_v49_apply, val_main_cst_6_apply, val_main_v48_apply,
    val_main_v47_apply, slope3_apply, slope2_apply, slope1_apply]
  rfl

/-- The fourth slope at (r, q). -/
theorem slope4_apply (r : Fin 262144) (q : Fin 128) :
    val_main_v63 (F := Ideal) x0 x1 x2 x3 x4 (ix2 r q)
      = rowDyn x1 x2 x3 x4 (Cert.Step.arg4 (rowDyn x1 x2 x3 x4) (fun j => x0 (ix2 r j))) q := by
  rw [slope4_eq, stage_apply]
  exact congrArg (fun y => rowDyn x1 x2 x3 x4 y q) (funext fun j => arg4_apply x0 x1 x2 x3 x4 r j)

/-- The reference's result at (r, q): the combined form of the step at row r. -/
theorem result_apply (r : Fin 262144) (q : Fin 128) :
    val_main_v72 (F := Ideal) x0 x1 x2 x3 x4 (ix2 r q)
      = Cert.Step.combined (rowDyn x1 x2 x3 x4) (fun j => x0 (ix2 r j)) q := by
  rw [val_main_v72_apply, val_main_v71_apply, val_main_v70_apply, val_main_v64_apply, val_main_cst_8_apply,
    val_main_cst_9_apply, val_main_v69_apply, val_main_v68_apply, val_main_v67_apply, val_main_v66_apply,
    val_main_cst_10_apply, val_main_v65_apply, slope4_apply, slope3_apply, slope2_apply, slope1_apply]
  rfl

end Cert.ReferenceIdeal.RefValue

end
-- ==== Proof.Bridge.lean ====
/-
  The two sides are one function.

  The kernel's result array is the ACCUMULATED step at every row, for the perceptron whose weights are the launch
  matrices rounded to the short float format and whose biases are the launch vectors viewed as 1-row matrices; the
  reference's is the COMBINED step at every row for the perceptron of the launch matrices and vectors themselves. At
  the exact values rounding is the identity and entry (0, k) of a vector viewed as a row is entry k of the vector, so the
  two perceptrons are the same row function, and the accumulated and combined forms agree for any row function
  (`Cert.Step.accumulated_eq_combined`).
-/
import proofs.«107746_j39135742001490_2_alg».proof.Proof.KernelArray
import proofs.«107746_j39135742001490_2_alg».proof.Proof.RefStage

noncomputable section

namespace Cert.Bridge

open Idealize.ShloMosaic Idealize.ShloMosaic.ValueIdx

/-- A length-`b` vector viewed as a 1-row matrix reads, at (0, k), the vector at k. -/
theorem row_apply {b : Nat} (v : (⟨1, ![b]⟩ : Shape).Idx → EReal)
    (h : (⟨1, ![b]⟩ : Shape).ShapeCasts ⟨2, ![1, b]⟩) (k : Fin b) :
    shapeCast ⟨2, ![1, b]⟩ v h (ix2 (0 : Fin 1) k) = v (ix1 k) :=
  shapeCast_apply v h _ _ (by
    rw [Shape.rowMajor_val_two, Shape.rowMajor_val_one]
    show k.val = 0 * b + k.val
    rw [Nat.zero_mul, Nat.zero_add])

variable (x1 : Cert.KernelIdeal.S256x128.Idx → Ideal .f32) (x2 : Cert.KernelIdeal.S256.Idx → Ideal .f32)
  (x3 : Cert.KernelIdeal.S128x256.Idx → Ideal .f32) (x4 : Cert.KernelIdeal.S128.Idx → Ideal .f32)
  (hlt : FTy.bits .bf16 < FTy.bits .f32) (hc1 : Cert.KernelIdeal.S256.ShapeCasts Cert.KernelIdeal.S1x256)
  (hc2 : Cert.KernelIdeal.S128.ShapeCasts Cert.KernelIdeal.S1x128)

/-- The kernel's perceptron, over the rounded weights and the row-shaped biases, is the reference's. -/
theorem rowDyn_eq :
    Cert.KernelIdeal.Stage.rowDyn (truncf .bf16 x1 hlt) (shapeCast Cert.KernelIdeal.S1x256 x2 hc1)
        (truncf .bf16 x3 hlt) (shapeCast Cert.KernelIdeal.S1x128 x4 hc2)
      = Cert.ReferenceIdeal.RefValue.rowDyn x1 x2 x3 x4 := by
  unfold Cert.KernelIdeal.Stage.rowDyn Cert.ReferenceIdeal.RefValue.rowDyn
  have e1 : (fun k : Fin 256 => shapeCast Cert.KernelIdeal.S1x256 x2 hc1 (ix2 (0 : Fin 1) k)) = fun k => x2 (ix1 k) :=
    funext fun k => row_apply x2 hc1 k
  have e2 : (fun r : Fin 128 => shapeCast Cert.KernelIdeal.S1x128 x4 hc2 (ix2 (0 : Fin 1) r)) = fun r => x4 (ix1 r) :=
    funext fun r => row_apply x4 hc2 r
  rw [e1, e2]
  rfl

/-- The kernel's result array, as a function of the launch arrays, is the reference's result term. -/
theorem result_eq (X : Cert.KernelIdeal.S262144x128.Idx → Ideal .f32) :
    Cert.KernelIdeal.Whole.newState X (truncf .bf16 x1 hlt) (shapeCast Cert.KernelIdeal.S1x256 x2 hc1)
        (truncf .bf16 x3 hlt) (shapeCast Cert.KernelIdeal.S1x128 x4 hc2)
      = Cert.ReferenceIdeal.Read.val_main_v72 (F := Ideal) X x1 x2 x3 x4 := by
  funext i
  obtain ⟨r, q, rfl⟩ : ∃ (r : Fin 262144) (q : Fin 128), i = ix2 r q := ⟨i 0, i 1, eq_ix2 i⟩
  rw [Cert.ReferenceIdeal.RefValue.result_apply]
  unfold Cert.KernelIdeal.Whole.newState
  rw [rowDyn_eq, Cert.Step.accumulated_eq_combined]

end Cert.Bridge

end
-- ==== Proof.lean ====
/- The proof of `Cert.Claim`: a kernel that advances a 262144 × 128 state by one step of the fourth-order Runge–Kutta
   3/8 rule (unit step size; the right-hand side a two-layer perceptron with 256 hidden units), 4096 rows per grid point,
   against the same step written with whole-array host operations.

   The mathematics, module by module:
   · Proof/StepLaw.lean — the step for one row and any right-hand side, its final combination ACCUMULATED slope by slope
     (the kernel) or COMBINED under one weight (the reference); the two agree on the extended reals because a
     nonnegative real weight distributes over any sum and ⅛ · 3 = ⅜. No finiteness is needed, so the precondition
     is never opened.
   · Proof/Dynamics.lean — the perceptron on one row.
   · Proof/KernelStage.lean, Proof/KernelBlock.lean — the kernel body on a block: each evaluation of the right-hand side
     at (p, q) is the perceptron of row p (two products into zero accumulators, read as plain sums), everything
     else is pointwise, so the stored block is the accumulated step row by row.
   · Proof/KernelArray.lean — block t of the result is rows 4096·t … of one function of the arrays; the 64 blocks cover
     the result; the parameters the region finds are the launch ones rounded / given a unit axis.
   · Proof/RefStage.lean — the reference read at (r, q): the combined step at row r.
   · Proof/Bridge.lean — the two perceptrons are one row function (rounding is the identity at the exact values), hence
     the two result arrays are equal.
   The three frames are the generated ones (the reference's is its run with the result dropped); the idealization
   rewrote nothing, so `preserves` is trivial. -/
import proofs.«107746_j39135742001490_2_alg».proof.Defs
import proofs.«107746_j39135742001490_2_alg».proof.Proof.Gen.Kernel
import proofs.«107746_j39135742001490_2_alg».proof.Proof.Gen.Kernel.Skeleton
import proofs.«107746_j39135742001490_2_alg».proof.Proof.Gen.Kernel.Launch
import proofs.«107746_j39135742001490_2_alg».proof.Proof.Gen.Kernel.Points
import proofs.«107746_j39135742001490_2_alg».proof.Proof.Gen.Kernel.Frame
import proofs.«107746_j39135742001490_2_alg».proof.Proof.Gen.KernelIdeal
import proofs.«107746_j39135742001490_2_alg».proof.Proof.Gen.KernelIdeal.Skeleton
import proofs.«107746_j39135742001490_2_alg».proof.Proof.Gen.KernelIdeal.Launch
import proofs.«107746_j39135742001490_2_alg».proof.Proof.Gen.KernelIdeal.Points
import proofs.«107746_j39135742001490_2_alg».proof.Proof.Gen.KernelIdeal.Frame
import proofs.«107746_j39135742001490_2_alg».proof.Proof.Gen.ReferenceIdeal
import proofs.«107746_j39135742001490_2_alg».proof.Proof.Gen.Pre_finite_inputs
import proofs.«107746_j39135742001490_2_alg».proof.Proof.Gen.KernelIdeal.Value
import proofs.«107746_j39135742001490_2_alg».proof.Proof.Gen.ReferenceIdeal.Run
import proofs.«107746_j39135742001490_2_alg».proof.Proof.Gen.ReferenceIdeal.Read
import proofs.«107746_j39135742001490_2_alg».proof.Proof.Bridge
import Idealize.ShloMosaic.Adequacy
import Idealize.ShloMosaic.Init

noncomputable section

namespace Cert.Proof

open Idealize.ShloMosaic Idealize.SL.Sem Cert.Kernel

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the five arguments both programs end with the same state array: the kernel's at the
    accumulated step of every row, the reference's at the combined step, one function of the arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v72_eq, (hagree c).1, (hagree c).2.1, (hagree c).2.2.1, (hagree c).2.2.2.1,
    (hagree c).2.2.2.2]
  exact (Cert.Bridge.result_eq _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
